-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000 : Shape := ⟨1, ![100000]⟩
abbrev S200000 : Shape := ⟨1, ![200000]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : IVec S100000 32) (main_arg2 : IVec S100000 32) (main_arg3 : IVec S200000 32) (main_arg4 : IVec S200000 32) (main_arg5 : IVec S300000 32) (main_arg6 : IVec S300000 32) (main_arg7 : FVec F S256x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg7
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S100000 : Shape := ⟨1, ![100000]⟩
abbrev S200000 : Shape := ⟨1, ![200000]⟩
abbrev S300000 : Shape := ⟨1, ![300000]⟩
abbrev S256x256 : Shape := ⟨2, ![256, 256]⟩
abbrev S256 : Shape := ⟨1, ![256]⟩
abbrev S_ : Shape := ⟨0, ![]⟩
abbrev S100000x1 : Shape := ⟨2, ![100000, 1]⟩
abbrev S100000x256 : Shape := ⟨2, ![100000, 256]⟩
abbrev S200000x1 : Shape := ⟨2, ![200000, 1]⟩
abbrev S200000x256 : Shape := ⟨2, ![200000, 256]⟩
abbrev S300000x1 : Shape := ⟨2, ![300000, 1]⟩
abbrev S300000x256 : Shape := ⟨2, ![300000, 256]⟩
abbrev S1x256 : Shape := ⟨2, ![1, 256]⟩
abbrev S1000x256 : Shape := ⟨2, ![1000, 256]⟩

abbrev nBuf : Space → Nat
  | .hbm => 131
  | .vmem => 6
  | .smem => 0
  | _ => 0

abbrev hbmTy0_0 (i : Nat) : BufTy := match i % 128 with
  | 0 => ⟨S50000x256, .f32⟩
  | 1 => ⟨S100000, .i32⟩
  | 2 => ⟨S100000, .i32⟩
  | 3 => ⟨S200000, .i32⟩
  | 4 => ⟨S200000, .i32⟩
  | 5 => ⟨S300000, .i32⟩
  | 6 => ⟨S300000, .i32⟩
  | 7 => ⟨S256x256, .f32⟩
  | 8 => ⟨S256, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x256, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S100000x256, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x256, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x256, .f32⟩
  | 46 => ⟨S200000x256, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x256, .f32⟩
  | 65 => ⟨S300000x256, .f32⟩
  | 66 => ⟨S_, .f32⟩
  | 67 => ⟨S200000x256, .f32⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S200000x256, .f32⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S200000x256, .f32⟩
  | 86 => ⟨S200000x256, .f32⟩
  | 87 => ⟨S_, .f32⟩
  | 88 => ⟨S100000x256, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S100000x256, .f32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S100000x256, .f32⟩
  | 107 => ⟨S100000x256, .f32⟩
  | 108 => ⟨S_, .f32⟩
  | 109 => ⟨S50000x256, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S50000x256, .f32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S50000x256, .f32⟩
  | _ => ⟨S50000x256, .f32⟩

abbrev hbmTy0_1 (i : Nat) : BufTy := match i % 128 with
  | 0 => ⟨S50000x256, .f32⟩
  | 1 => ⟨S1x256, .f32⟩
  | 2 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_c_16 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_c_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_c_21 : Ref sig .tc := ⟨.hbm, 110, rfl⟩
abbrev main_v78 : Ref sig .tc := ⟨.hbm, 111, rfl⟩
abbrev main_v79 : Ref sig .tc := ⟨.hbm, 112, rfl⟩
abbrev main_c_22 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_23 : Ref sig .tc := ⟨.hbm, 119, rfl⟩
abbrev main_v85 : Ref sig .tc := ⟨.hbm, 120, rfl⟩
abbrev main_v86 : Ref sig .tc := ⟨.hbm, 121, rfl⟩
abbrev main_c_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S200000x256 : S_.BroadcastsInDim S200000x256 (![] : Fin 0 → Fin S200000x256.rank)
  bcast_S_S100000x256 : S_.BroadcastsInDim S100000x256 (![] : Fin 0 → Fin S100000x256.rank)
  bcast_S_S50000x256 : S_.BroadcastsInDim S50000x256 (![] : Fin 0 → Fin S50000x256.rank)
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S50000x256_S100000x1_S100000x256_1_0_n_n_0_1_1256_wf : GatherDims.WF S50000x256 S100000x1 S100000x256 [1] [0] [] [0] [] 1 ![1, 256]
  gather_S100000x256_S200000x1_S200000x256_1_0_n_n_0_1_1256_wf : GatherDims.WF S100000x256 S200000x1 S200000x256 [1] [0] [] [0] [] 1 ![1, 256]
  gather_S200000x256_S300000x1_S300000x256_1_0_n_n_0_1_1256_wf : GatherDims.WF S200000x256 S300000x1 S300000x256 [1] [0] [] [0] [] 1 ![1, 256]
  scatter_S200000x256_S300000x1_S300000x256_1_0_0_1_wf : ScatterDims.WF S200000x256 S300000x1 S300000x256 [1] [0] [0] 1
  scatter_S100000x256_S200000x1_S200000x256_1_0_0_1_wf : ScatterDims.WF S100000x256 S200000x1 S200000x256 [1] [0] [0] 1
  scatter_S50000x256_S100000x1_S100000x256_1_0_0_1_wf : ScatterDims.WF S50000x256 S100000x1 S100000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)

variable [Facts₀]

def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def gather_S200000x256_S300000x1_S300000x256_1_0_n_n_0_1_1256 : GatherDims S200000x256 S300000x1 S300000x256 where
  offsetDims := [1]
  collapsedSliceDims := [0]
  operandBatchingDims := []
  startIndicesBatchingDims := []
  startIndexMap := [0]
  indexVectorDim := 1
  sliceSizes := ![1, 256]
  wf := gather_S200000x256_S300000x1_S300000x256_1_0_n_n_0_1_1256_wf
def scatter_S200000x256_S300000x1_S300000x256_1_0_0_1 : ScatterDims S200000x256 S300000x1 S300000x256 where
  updateWindowDims := [1]
  insertedWindowDims := [0]
  scatterDimsToOperandDims := [0]
  indexVectorDim := 1
  wf := scatter_S200000x256_S300000x1_S300000x256_1_0_0_1_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def scatter_S50000x256_S100000x1_S100000x256_1_0_0_1 : ScatterDims S50000x256 S100000x1 S100000x256 where
  updateWindowDims := [1]
  insertedWindowDims := [0]
  scatterDimsToOperandDims := [0]
  indexVectorDim := 1
  wf := scatter_S50000x256_S100000x1_S100000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v92) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v93) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v94) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S100000 : Shape := ⟨1, ![100000]⟩
abbrev S200000 : Shape := ⟨1, ![200000]⟩
abbrev S300000 : Shape := ⟨1, ![300000]⟩
abbrev S256x256 : Shape := ⟨2, ![256, 256]⟩
abbrev S256 : Shape := ⟨1, ![256]⟩
abbrev S_ : Shape := ⟨0, ![]⟩
abbrev S100000x1 : Shape := ⟨2, ![100000, 1]⟩
abbrev S100000x256 : Shape := ⟨2, ![100000, 256]⟩
abbrev S200000x1 : Shape := ⟨2, ![200000, 1]⟩
abbrev S200000x256 : Shape := ⟨2, ![200000, 256]⟩
abbrev S300000x1 : Shape := ⟨2, ![300000, 1]⟩
abbrev S300000x256 : Shape := ⟨2, ![300000, 256]⟩
abbrev S1x256 : Shape := ⟨2, ![1, 256]⟩

abbrev nBuf : Space → Nat
  | .hbm => 142
  | .vmem => 0
  | .smem => 0
  | _ => 0

abbrev hbmTy0_0 (i : Nat) : BufTy := match i % 128 with
  | 0 => ⟨S50000x256, .f32⟩
  | 1 => ⟨S100000, .i32⟩
  | 2 => ⟨S100000, .i32⟩
  | 3 => ⟨S200000, .i32⟩
  | 4 => ⟨S200000, .i32⟩
  | 5 => ⟨S300000, .i32⟩
  | 6 => ⟨S300000, .i32⟩
  | 7 => ⟨S256x256, .f32⟩
  | 8 => ⟨S256, .f32⟩
  | 9 => ⟨S_, .i32⟩
  | 10 => ⟨S100000, .i32⟩
  | 11 => ⟨S100000, .i1⟩
  | 12 => ⟨S_, .i32⟩
  | 13 => ⟨S100000, .i32⟩
  | 14 => ⟨S100000, .i32⟩
  | 15 => ⟨S100000, .i32⟩
  | 16 => ⟨S100000x1, .i32⟩
  | 17 => ⟨S100000x256, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S100000x256, .f32⟩
  | 28 => ⟨S_, .i32⟩
  | 29 => ⟨S200000, .i32⟩
  | 30 => ⟨S200000, .i1⟩
  | 31 => ⟨S_, .i32⟩
  | 32 => ⟨S200000, .i32⟩
  | 33 => ⟨S200000, .i32⟩
  | 34 => ⟨S200000, .i32⟩
  | 35 => ⟨S200000x1, .i32⟩
  | 36 => ⟨S200000x256, .f32⟩
  | 37 => ⟨S_, .i32⟩
  | 38 => ⟨S200000, .i32⟩
  | 39 => ⟨S200000, .i1⟩
  | 40 => ⟨S_, .i32⟩
  | 41 => ⟨S200000, .i32⟩
  | 42 => ⟨S200000, .i32⟩
  | 43 => ⟨S200000, .i32⟩
  | 44 => ⟨S200000x1, .i32⟩
  | 45 => ⟨S200000x256, .f32⟩
  | 46 => ⟨S200000x256, .f32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S300000x256, .f32⟩
  | 65 => ⟨S300000x256, .f32⟩
  | 66 => ⟨S_, .f32⟩
  | 67 => ⟨S200000x256, .f32⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S200000x256, .f32⟩
  | 77 => ⟨S_, .i32⟩
  | 78 => ⟨S300000, .i32⟩
  | 79 => ⟨S300000, .i1⟩
  | 80 => ⟨S_, .i32⟩
  | 81 => ⟨S300000, .i32⟩
  | 82 => ⟨S300000, .i32⟩
  | 83 => ⟨S300000, .i32⟩
  | 84 => ⟨S300000x1, .i32⟩
  | 85 => ⟨S200000x256, .f32⟩
  | 86 => ⟨S200000x256, .f32⟩
  | 87 => ⟨S_, .f32⟩
  | 88 => ⟨S100000x256, .f32⟩
  | 89 => ⟨S_, .i32⟩
  | 90 => ⟨S200000, .i32⟩
  | 91 => ⟨S200000, .i1⟩
  | 92 => ⟨S_, .i32⟩
  | 93 => ⟨S200000, .i32⟩
  | 94 => ⟨S200000, .i32⟩
  | 95 => ⟨S200000, .i32⟩
  | 96 => ⟨S200000x1, .i32⟩
  | 97 => ⟨S100000x256, .f32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S100000x256, .f32⟩
  | 107 => ⟨S100000x256, .f32⟩
  | 108 => ⟨S_, .f32⟩
  | 109 => ⟨S50000x256, .f32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S100000x1, .i32⟩
  | 118 => ⟨S50000x256, .f32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S1x256, .f32⟩
  | 3 => ⟨S50000x256, .f32⟩
  | 4 => ⟨S50000x256, .f32⟩
  | 5 => ⟨S50000x256, .f32⟩
  | 6 => ⟨S50000x256, .f32⟩
  | 7 => ⟨S_, .f32⟩
  | 8 => ⟨S50000x256, .f32⟩
  | 9 => ⟨S50000x256, .f32⟩
  | 10 => ⟨S_, .f32⟩
  | 11 => ⟨S50000x256, .f32⟩
  | 12 => ⟨S50000x256, .f32⟩
  | 13 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_c_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_13 : Ref sig .tc := ⟨.hbm, 77, rfl⟩
abbrev main_v53 : Ref sig .tc := ⟨.hbm, 78, rfl⟩
abbrev main_v54 : Ref sig .tc := ⟨.hbm, 79, rfl⟩
abbrev main_c_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_c_16 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_18 : Ref sig .tc := ⟨.hbm, 98, rfl⟩
abbrev main_v69 : Ref sig .tc := ⟨.hbm, 99, rfl⟩
abbrev main_v70 : Ref sig .tc := ⟨.hbm, 100, rfl⟩
abbrev main_c_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_c_21 : Ref sig .tc := ⟨.hbm, 110, rfl⟩
abbrev main_v78 : Ref sig .tc := ⟨.hbm, 111, rfl⟩
abbrev main_v79 : Ref sig .tc := ⟨.hbm, 112, rfl⟩
abbrev main_c_22 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_23 : Ref sig .tc := ⟨.hbm, 119, rfl⟩
abbrev main_v85 : Ref sig .tc := ⟨.hbm, 120, rfl⟩
abbrev main_v86 : Ref sig .tc := ⟨.hbm, 121, rfl⟩
abbrev main_c_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call0_v0 : Ref sig .tc := ⟨.hbm, 133, rfl⟩
abbrev main_call0_v1 : Ref sig .tc := ⟨.hbm, 134, rfl⟩
abbrev main_call0_cst : Ref sig .tc := ⟨.hbm, 135, rfl⟩
abbrev main_call0_v2 : Ref sig .tc := ⟨.hbm, 136, rfl⟩
abbrev main_call0_v3 : Ref sig .tc := ⟨.hbm, 137, rfl⟩
abbrev main_call0_cst_0 : Ref sig .tc := ⟨.hbm, 138, rfl⟩
abbrev main_call0_v4 : Ref sig .tc := ⟨.hbm, 139, rfl⟩
abbrev main_call0_v5 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S200000x256 : S_.BroadcastsInDim S200000x256 (![] : Fin 0 → Fin S200000x256.rank)
  bcast_S_S100000x256 : S_.BroadcastsInDim S100000x256 (![] : Fin 0 → Fin S100000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S100000x1_S100000x256_1_0_n_n_0_1_1256_wf : GatherDims.WF S50000x256 S100000x1 S100000x256 [1] [0] [] [0] [] 1 ![1, 256]
  gather_S100000x256_S200000x1_S200000x256_1_0_n_n_0_1_1256_wf : GatherDims.WF S100000x256 S200000x1 S200000x256 [1] [0] [] [0] [] 1 ![1, 256]
  gather_S200000x256_S300000x1_S300000x256_1_0_n_n_0_1_1256_wf : GatherDims.WF S200000x256 S300000x1 S300000x256 [1] [0] [] [0] [] 1 ![1, 256]
  scatter_S200000x256_S300000x1_S300000x256_1_0_0_1_wf : ScatterDims.WF S200000x256 S300000x1 S300000x256 [1] [0] [0] 1
  scatter_S100000x256_S200000x1_S200000x256_1_0_0_1_wf : ScatterDims.WF S100000x256 S200000x1 S200000x256 [1] [0] [0] 1
  scatter_S50000x256_S100000x1_S100000x256_1_0_0_1_wf : ScatterDims.WF S50000x256 S100000x1 S100000x256 [1] [0] [0] 1
  dot_S50000x256_S256x256_S50000x256_1_0_0_1_n_n_wf : DotDims.WF S50000x256 S256x256 S50000x256 [1] [0] [0] [1] [] []

variable [Facts₀]

def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def gather_S200000x256_S300000x1_S300000x256_1_0_n_n_0_1_1256 : GatherDims S200000x256 S300000x1 S300000x256 where
  offsetDims := [1]
  collapsedSliceDims := [0]
  operandBatchingDims := []
  startIndicesBatchingDims := []
  startIndexMap := [0]
  indexVectorDim := 1
  sliceSizes := ![1, 256]
  wf := gather_S200000x256_S300000x1_S300000x256_1_0_n_n_0_1_1256_wf
def scatter_S200000x256_S300000x1_S300000x256_1_0_0_1 : ScatterDims S200000x256 S300000x1 S300000x256 where
  updateWindowDims := [1]
  insertedWindowDims := [0]
  scatterDimsToOperandDims := [0]
  indexVectorDim := 1
  wf := scatter_S200000x256_S300000x1_S300000x256_1_0_0_1_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def scatter_S50000x256_S100000x1_S100000x256_1_0_0_1 : ScatterDims S50000x256 S100000x1 S100000x256 where
  updateWindowDims := [1]
  insertedWindowDims := [0]
  scatterDimsToOperandDims := [0]
  indexVectorDim := 1
  wf := scatter_S50000x256_S100000x1_S100000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The function both programs compute, stated once over literal shapes.

  Given the node features after the upward products and downward scatter sums, `h` of shape [50000, 256], a
  weight matrix `w` of shape [256, 256] and a bias `b` of shape [256], the result at row `p` and column `q` is
  `silu (∑ k, h (p, k) * w (k, q) + b q)` with `silu y = y * logistic y` and `logistic y = 1 / (1 + e^(-y))`,
  all on the extended reals.
-/
import Idealize.ShloMosaic.PureOps.Ideal
import Idealize.ShloMosaic.Lib.ValueIdx

noncomputable section

namespace Cert.Mlp

open Idealize.ShloMosaic Idealize.ShloMosaic.ValueIdx

/-- `silu y = y · 1 / (1 + e^(-y))` on the extended reals. -/
def silu (y : EReal) : EReal := y * Ideal.logistic y

/-- The linear layer before the activation: row `p` of `h` against column `q` of `w`, plus the bias at `q`. -/
def pre (h : (⟨2, ![50000, 256]⟩ : Shape).Idx → EReal) (w : (⟨2, ![256, 256]⟩ : Shape).Idx → EReal)
    (b : (⟨1, ![256]⟩ : Shape).Idx → EReal) (p : Fin 50000) (q : Fin 256) : EReal :=
  (∑ k : Fin 256, h (ix2 p k) * w (ix2 k q)) + b (ix1 q)

/-- The whole result array: `silu` of the linear layer, entry by entry. -/
def mlp (h : (⟨2, ![50000, 256]⟩ : Shape).Idx → EReal) (w : (⟨2, ![256, 256]⟩ : Shape).Idx → EReal)
    (b : (⟨1, ![256]⟩ : Shape).Idx → EReal) : (⟨2, ![50000, 256]⟩ : Shape).Idx → EReal :=
  fun i => silu (pre h w b (i 0) (i 1))

/-- The float pattern of one denotes the real number one. -/
theorem ofBits_one : Ideal.ofBits .f32 0x3F800000#32 = 1 := by
  simp [Ideal.ofBits, Ideal.ieee, -EReal.coe_mul]; norm_num

/-- jnp's expansion of the logistic function, `1 / (1 + e^(-y))` with the ones written as float patterns, is
    the logistic function. -/
theorem expansion_eq_logistic (y : EReal) :
    Ideal.div (Ideal.ofBits .f32 0x3F800000#32) (Ideal.ofBits .f32 0x3F800000#32 + Ideal.exp (-y)) = Ideal.logistic y := by
  rw [ofBits_one]; rfl

end Cert.Mlp

end
-- ==== Proof.RefIsSpec.lean ====
/-
  The reference's result is the specification applied to the features after the scatter sums.

  The reference forms `h1 @ W` as a dot over the 256 columns of `h1`, adds the bias stretched over all rows, and
  applies jnp's `silu`: the argument times `1 / (1 + e^(-argument))`. Entry by entry this is
  `silu (∑ k, h1 (p, k) * W (k, q) + b q)`. The array `h1` (the features after the three gather-products and
  the three scatter sums) is kept as one unopened term.
-/
import proofs.«109214_j59150289600979_1_alg».proof.Proof.Gen.ReferenceIdeal.Read
import proofs.«109214_j59150289600979_1_alg».proof.Proof.Spec

noncomputable section

namespace Cert.ReferenceIdeal.RefValue

open Cert.ReferenceIdeal Cert.ReferenceIdeal.Read Idealize.ShloMosaic Idealize.ShloMosaic.ValueIdx

variable (x0 : (⟨S50000x256, .f32⟩ : BufTy).Contents (Elt Ideal)) (x1 x2 : (⟨S100000, .i32⟩ : BufTy).Contents (Elt Ideal))
  (x3 x4 : (⟨S200000, .i32⟩ : BufTy).Contents (Elt Ideal)) (x5 x6 : (⟨S300000, .i32⟩ : BufTy).Contents (Elt Ideal))
  (x7 : (⟨S256x256, .f32⟩ : BufTy).Contents (Elt Ideal)) (x8 : (⟨S256, .f32⟩ : BufTy).Contents (Elt Ideal))

/-- The reference's last stage, as a function of the nine arguments, is the specification of the features after
    the scatter sums (the stage `val_main_v92`), the weight and the bias. -/
theorem ref_is_mlp :
    val_main_v97 (F := Ideal) x0 x1 x2 x3 x4 x5 x6 x7 x8
      = Cert.Mlp.mlp (val_main_v92 (F := Ideal) x0 x1 x2 x3 x4 x5 x6) x7 x8 := by
  funext i
  have el : ∀ k : Fin 256, lidx_main_v93 i k = ix2 (i 0) k := fun k =>
    funext fun a => Fin.ext (by match a with | ⟨0, _⟩ => rfl | ⟨1, _⟩ => rfl)
  have er : ∀ k : Fin 256, ridx_main_v93 i k = ix2 k (i 1) := fun k =>
    funext fun a => Fin.ext (by match a with | ⟨0, _⟩ => rfl | ⟨1, _⟩ => rfl)
  have eb : idx_main_v94 (idx_main_v95 i) = ix1 (i 1) :=
    funext fun a => Fin.ext (by match a with | ⟨0, _⟩ => rfl)
  rw [val_main_v97_apply, val_main_call0_v5_apply, val_main_call0_v4_apply, val_main_call0_cst_0_apply,
    val_main_call0_v3_apply, val_main_call0_v2_apply, val_main_call0_cst_apply, val_main_call0_v1_apply,
    val_main_call0_v0_apply, val_main_v96_apply, val_main_v95_apply, val_main_v94_apply, val_main_v93_apply]
  simp only [el, er, eb, Ideal.mulf_def, Ideal.addf_def, Ideal.hostDivf_def, Ideal.hostUnary_exp_def,
    Ideal.hostNegf_def, Ideal.negf_def, Ideal.ofBits_def, Cert.Mlp.expansion_eq_logistic]
  rfl

end Cert.ReferenceIdeal.RefValue

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.Payload.lean ====
/-
  The kernel body's value at one entry of its output block.

  The body loads a [1000, 256] block `x` of the features, the whole [256, 256] weight `w` and the bias as a
  [1, 256] row `b`; narrows `x` and `w` to bf16 (no change on the extended reals), multiplies them into a zero
  accumulator, adds the bias row to every row, and multiplies the sum by its logistic. At row `p`, column `q`
  this is `silu (∑ k, x (p, k) * w (k, q) + b (0, q))`.
-/
import proofs.«109214_j59150289600979_1_alg».proof.Proof.Gen.KernelIdeal.Skeleton
import proofs.«109214_j59150289600979_1_alg».proof.Proof.Spec
import proofs.«109214_j59150289600979_1_alg».proof.Proof.LibDotSum
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The block's matrix product into a zero accumulator, at `(p, q)`: the sum over the 256 contracted positions of
    row `p` of the left factor against column `q` of the right. -/
theorem matmul_at (l : FVec Ideal S1000x256 .bf16) (r : FVec Ideal S256x256 .bf16) (p : Fin 1000) (q : Fin 256) :
    matmul dot_S1000x256_S256x256_S1000x256_1_0_0_1_n_n none l r (constant S1000x256 .f32 0x00000000#32) (ix2 p q)
      = ∑ k : Fin 256, l (ix2 p k) * r (ix2 k q) := by
  refine (Ideal.matmul_constant_zero_apply dot_S1000x256_S256x256_S1000x256_1_0_0_1_n_n none l r (ix2 p q)).trans ?_
  exact Cert.LibDotSum.sum_contr_eq_sum_fin dot_S1000x256_S256x256_S1000x256_1_0_0_1_n_n rfl rfl
    (fun _ _ => rfl)
    (fun j k => dot_S1000x256_S256x256_S1000x256_1_0_0_1_n_n.lhsIdx_val_of_single rfl j k)
    (fun j k => dot_S1000x256_S256x256_S1000x256_1_0_0_1_n_n.rhsIdx_val_of_single rfl j k)
    (fun _ _ => rfl) l r (ix2 p q)

/-- The bias row stretched over the block's 1000 rows, at `(p, q)`, is the row's entry at column `q`. -/
theorem bias_at (b : Vec Ideal S1x256 .f32) (p : Fin 1000) (q : Fin 256) :
    broadcastTo S1000x256 (shapeCast S1x256 b shapeCasts_S1x256_S1x256) broadcasts_S1x256_S1000x256 (ix2 p q)
      = b (ix2 0 q) := by
  rw [shapeCast_self]
  exact broadcastTo_apply b broadcasts_S1x256_S1000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The body's stored value at `(p, q)` of its block. -/
theorem pay_at (x : Vec Ideal S1000x256 .f32) (w : Vec Ideal S256x256 .f32) (b : Vec Ideal S1x256 .f32)
    (p : Fin 1000) (q : Fin 256) :
    k0_pay1 (F := Ideal) x w b (ix2 p q)
      = Cert.Mlp.silu ((∑ k : Fin 256, x (ix2 p k) * w (ix2 k q)) + b (ix2 0 q)) := by
  unfold k0_pay1
  show Cert.Mlp.silu (addf (_ : FVec Ideal S1000x256 .f32) _ (ix2 p q)) = _
  refine congrArg Cert.Mlp.silu ((addf_apply _ _ _).trans ?_)
  rw [shapeCast_self x]
  exact congrArg₂ (· + ·) (matmul_at _ _ p q) (bias_at b p q)

end Cert.KernelIdeal.Payload

end
-- ==== Proof.Entry.lean ====
/-
  What the kernel's region finds in the arrays its windows read.

  Before the region the host has computed the node features after the upward gather-products and the downward
  scatter sums — the very operations, in the very order, that the reference applies to the same arguments — and
  has reshaped the bias from [256] to [1, 256]. So the first window's array is the reference's own features
  stage of the arguments, and the bias window's array at `(0, q)` is the bias at `q`.
-/
import proofs.«109214_j59150289600979_1_alg».proof.Proof.Gen.KernelIdeal.Frame
import proofs.«109214_j59150289600979_1_alg».proof.Proof.Gen.ReferenceIdeal.Read
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 16384 in
set_option maxHeartbeats 50000000 in
/-- The features array the region finds is the reference's features stage of the same seven arguments: both
    programs apply the same gathers, products, scatter sums and additions in the same order. -/
theorem feats_eq (c : Dev nD) :
    (V m c main_v92 : S50000x256.Idx → EReal)
      = Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [V, hostOps0]
  after_results_simp
  rfl

set_option maxRecDepth 16384 in
set_option maxHeartbeats 50000000 in
/-- The bias array the region finds is the bias argument recast from [256] to [1, 256]. -/
theorem bias_eq (c : Dev nD) :
    (V m c main_v93 : S1x256.Idx → EReal)
      = shapeCast S1x256 (m ((c : Thread nD τ).loc main_arg8) : S256.Idx → EReal) shapeCasts_S256_S1x256 := by
  dsimp only [V, hostOps0]
  after_results_simp
  rfl

/-- … so at `(0, q)` it holds the bias at `q`. -/
theorem bias_at (c : Dev nD) (u : Fin 1) (q : Fin 256) :
    (V m c main_v93 : S1x256.Idx → EReal) (ix2 u q) = (m ((c : Thread nD τ).loc main_arg8) : S256.Idx → EReal) (ix1 q) := by
  rw [bias_eq]
  exact shapeCast_a_1a_apply _ shapeCasts_S256_S1x256 u q

end Cert.KernelIdeal.Entry

end
-- ==== Proof.Whole.lean ====
/-
  From the kernel's blocks to its whole result array.

  The grid has 50 points. Point `t` reads rows `1000 t … 1000 t + 999` of the features, the whole weight and the
  whole bias row, and writes rows `1000 t … 1000 t + 999` of the result. An entry of the block written at point
  `t`, at `(p, q)`, is `silu (∑ k, feats (1000 t + p, k) * W (k, q) + b q)`: the specification at the array index
  `(1000 t + p, q)`. Every row lies in exactly one such block (row `r` in block `r / 1000`), so the blocks cover
  the array and the array ends holding the specification everywhere.
-/
import proofs.«109214_j59150289600979_1_alg».proof.Proof.Gen.KernelIdeal.Value
import proofs.«109214_j59150289600979_1_alg».proof.Proof.Payload
import proofs.«109214_j59150289600979_1_alg».proof.Proof.Entry
import proofs.«109214_j59150289600979_1_alg».proof.Proof.Spec

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each of the 50 points: the features and the result move down one block of
    rows per point; the weight and the bias stay at block zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array as a function of what the region finds: the specification of the features array, the weight
    argument and the bias argument. -/
def result (c : Dev nD) : S50000x256.Idx → EReal :=
  Cert.Mlp.mlp (V m c main_v92) (m ((c : Thread nD τ).loc main_arg7)) (m ((c : Thread nD τ).loc main_arg8))

/-- The features block at point `t` is rows `1000 t …` of the features array. -/
theorem feats_blk (c : Dev nD) (t : Fin cfg0.N) (x : S1000x256.Idx) (i : S50000x256.Idx)
    (h0 : (i 0).val = 1000 * t.val + (x 0).val) (h1 : (i 1).val = (x 1).val) :
    (iblk m c 0 t : Vec Ideal S1000x256 .f32) x = (V m c main_v92 : S50000x256.Idx → EReal) i := by
  obtain ⟨e0, e1, -⟩ := block_indices t
  show (V m c main_v92 : S50000x256.Idx → EReal) (((cfg0.win 0).blk t).view.emb x) = _
  refine congrArg (V m c main_v92 : S50000x256.Idx → EReal) (funext fun a => Fin.ext ?_)
  match a with
  | ⟨0, _⟩ => show win0_0.index t (0 : Fin 2) * 1000 + 1 * (x 0).val = (i 0).val; rw [e0, h0]; omega
  | ⟨1, _⟩ => show win0_0.index t (1 : Fin 2) * 256 + 1 * (x 1).val = (i 1).val; rw [e1, h1]; omega

/-- The weight block at every point is the whole weight argument. -/
theorem weight_blk (c : Dev nD) (t : Fin cfg0.N) (x : S256x256.Idx) :
    (iblk m c 1 t : Vec Ideal S256x256 .f32) x = (m ((c : Thread nD τ).loc main_arg7) : S256x256.Idx → EReal) x := by
  obtain ⟨-, -, e2, e3, -⟩ := block_indices t
  refine Eq.trans ?_ (congrFun (V_main_arg7 m c) x)
  show (V m c main_arg7 : S256x256.Idx → EReal) (((cfg0.win 1).blk t).view.emb x) = _
  refine congrArg (V m c main_arg7 : S256x256.Idx → EReal) (funext fun a => Fin.ext ?_)
  match a with
  | ⟨0, _⟩ => show win0_1.index t (0 : Fin 2) * 256 + 1 * (x 0).val = (x 0).val; rw [e2]; omega
  | ⟨1, _⟩ => show win0_1.index t (1 : Fin 2) * 256 + 1 * (x 1).val = (x 1).val; rw [e3]; omega

/-- The bias block at every point is the whole [1, 256] bias row: at `(0, q)` the bias argument at `q`. -/
theorem bias_blk (c : Dev nD) (t : Fin cfg0.N) (q : Fin 256) :
    (iblk m c 2 t : Vec Ideal S1x256 .f32) (ix2 0 q) = (m ((c : Thread nD τ).loc main_arg8) : S256.Idx → EReal) (ix1 q) := by
  obtain ⟨-, -, -, -, e4, e5, -⟩ := block_indices t
  refine Eq.trans ?_ (Entry.bias_at m c 0 q)
  show (V m c main_v93 : S1x256.Idx → EReal) (((cfg0.win 2).blk t).view.emb (ix2 0 q)) = _
  refine congrArg (V m c main_v93 : S1x256.Idx → EReal) (funext fun a => Fin.ext ?_)
  match a with
  | ⟨0, _⟩ => show win0_2.index t (0 : Fin 2) * 1 + 1 * 0 = 0; rw [e4]
  | ⟨1, _⟩ => show win0_2.index t (1 : Fin 2) * 256 + 1 * q.val = q.val; rw [e5]; omega

/-- The body's value at `(p, q)` of the block of point `t` is the specification at the array index
    `(1000 t + p, q)`. -/
theorem entry_eq (c : Dev nD) (p : Fin 1000) (q : Fin 256) (i : S50000x256.Idx) (h1 : (i 1).val = q.val)
    (x : Vec Ideal S1000x256 .f32) (w : Vec Ideal S256x256 .f32) (b : Vec Ideal S1x256 .f32)
    (hx : ∀ k : Fin 256, x (ix2 p k) = (V m c main_v92 : S50000x256.Idx → EReal) (ix2 (i 0) k))
    (hw : ∀ k : Fin 256, w (ix2 k q) = (m ((c : Thread nD τ).loc main_arg7) : S256x256.Idx → EReal) (ix2 k q))
    (hb : b (ix2 0 q) = (m ((c : Thread nD τ).loc main_arg8) : S256.Idx → EReal) (ix1 q)) :
    Cert.Mlp.silu ((∑ k : Fin 256, x (ix2 p k) * w (ix2 k q)) + b (ix2 0 q)) = result m c i := by
  have hq : (i 1 : Fin 256) = q := Fin.ext h1
  unfold result Cert.Mlp.mlp Cert.Mlp.pre
  rw [hq]
  exact congrArg Cert.Mlp.silu (congrArg₂ (· + ·)
    (Finset.sum_congr rfl fun k _ => congrArg₂ (· * ·) (hx k) (hw k)) hb)

set_option maxHeartbeats 2000000 in
/-- What point `t` writes back is block `t` of the result array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S1000x256) zero_offsets, View.ld_unit_zero (S := S256x256) zero_offsets,
    View.ld_unit_zero (S := S1x256) zero_offsets]
  obtain ⟨-, -, -, -, -, -, e6, e7⟩ := block_indices t
  funext j
  obtain ⟨p, q, rfl⟩ : ∃ (p : Fin 1000) (q : Fin 256), j = ix2 p q := ⟨j 0, j 1, eq_ix2 j⟩
  show k0_pay1 (F := Ideal) (iblk m c 0 t) (iblk m c 1 t) (iblk m c 2 t) (ix2 p q)
    = result m c (((cfg0.win 3).blk t).view.emb (ix2 p q))
  refine (Payload.pay_at (iblk m c 0 t) (iblk m c 1 t) (iblk m c 2 t) p q).trans ?_
  refine entry_eq m c p q _ ?_ (iblk m c 0 t) (iblk m c 1 t) (iblk m c 2 t)
    (fun k => feats_blk m c t (ix2 p k) _ ?_ rfl) (fun k => weight_blk m c t (ix2 k q)) (bias_blk m c t q)
  · show win0_3.index t (1 : Fin 2) * 256 + 1 * q.val = q.val; rw [e7]; omega
  · show win0_3.index t (0 : Fin 2) * 1000 + 1 * p.val = 1000 * t.val + p.val; rw [e6]; omega

/-- An index of the array is in point `t`'s block iff each coordinate is in the block's range on its axis. -/
theorem mem_blk (t : Fin cfg0.N) (i : S50000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v94).slice (win0_3.rect t)).set ↔ _
  rw [View.set_slice_whole, Rect.mem_set_unit]
  exact Iff.rfl

/-- Every array index lies in the block of the point its row falls in: row `r` in block `r / 1000`. -/
theorem cover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 50 := N_0
  have ht : (i 0).val / 1000 < cfg0.N := by rw [hN]; omega
  obtain ⟨-, -, -, -, -, -, e6, e7⟩ := block_indices ⟨(i 0).val / 1000, ht⟩
  refine ⟨⟨(i 0).val / 1000, ht⟩, flush0_3 _, ?_⟩
  rw [mem_blk]
  intro a
  match a with
  | ⟨0, _⟩ =>
    show win0_3.index ⟨(i 0).val / 1000, ht⟩ (0 : Fin 2) * 1000 ≤ (i 0).val
      ∧ (i 0).val < win0_3.index ⟨(i 0).val / 1000, ht⟩ (0 : Fin 2) * 1000 + 1000
    rw [e6]; show (i 0).val / 1000 * 1000 ≤ (i 0).val ∧ (i 0).val < (i 0).val / 1000 * 1000 + 1000; omega
  | ⟨1, _⟩ =>
    show win0_3.index ⟨(i 0).val / 1000, ht⟩ (1 : Fin 2) * 256 ≤ (i 1).val
      ∧ (i 1).val < win0_3.index ⟨(i 0).val / 1000, ht⟩ (1 : Fin 2) * 256 + 256
    rw [e7]; omega

/-- The result array after the run is the specification of the features array, the weight and the bias. -/
theorem final (c : Dev nD) : (dats m 0 c).arrAt 3 cfg0.N = result m c :=
  (dats m 0 c).arrAt_eq_of_cover 3 (result m c) (fun t _ => flushed_eq m c t) cover

/-- The kernel's run, read: the result array ends at the specification applied to the reference's features stage
    of the first seven arguments, the weight and the bias; the arguments end unchanged. -/
theorem run : θ_run defs (onTc (τ := τ) (main (F := Ideal))) ⟨m, fun _ => 0, ρ⟩ fun r => ∀ c : Dev nD,
      r.2.mem ((c : Thread nD τ).loc main_v94)
        = Cert.Mlp.mlp (Cert.ReferenceIdeal.Read.val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
            (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1.trans (final m c)).trans
      (congrArg (fun f => Cert.Mlp.mlp f (m ((c : Thread nD τ).loc main_arg7)) (m ((c : Thread nD τ).loc main_arg8)))
        (Entry.feats_eq m c)), (h c).2⟩)
    (Value.run_blocks m ρ)

end Cert.KernelIdeal.Whole

end
-- ==== Proof.lean ====
/-
  A hierarchical message-passing layer followed by a dense layer with a SiLU activation, against its jnp reference.

  Both programs first compute, on the host and by the same operations in the same order, the node features after
  three levels of gather-products (each child the product of two parent rows) and three levels of scatter sums back
  down. The kernel then applies `silu (h1 @ W + b)` in a Pallas kernel over 50 blocks of 1000 rows: it narrows the
  block and the weight to bf16 (no change on the extended reals), multiplies them into a zero accumulator, adds the
  bias row and multiplies by the logistic. The reference applies `h1 @ W` as one dot, adds the bias, and expands the
  logistic as `1 / (1 + e^(-y))`.

  On the extended reals both results are, at row `p` and column `q`,
  `silu (∑ k, h1 (p, k) * W (k, q) + b q)` with `silu y = y * logistic y` (Proof/Spec.lean):
  * Proof/RefIsSpec.lean: the reference's last stage is that function of its own features stage;
  * Proof/Payload.lean: the kernel body's stored value at an entry of its block;
  * Proof/Entry.lean: the arrays the kernel's region finds are the reference's features stage and the bias recast;
  * Proof/Whole.lean: the 50 blocks cover the result array, which so ends at the same function.
  No law of arithmetic beyond reading both sides is needed, so finiteness of the inputs is not used. The three
  frames are the generated ones, and the idealization rewrote no operation.
-/
import proofs.«109214_j59150289600979_1_alg».proof.Defs
import proofs.«109214_j59150289600979_1_alg».proof.Proof.Gen.Kernel
import proofs.«109214_j59150289600979_1_alg».proof.Proof.Gen.Kernel.Skeleton
import proofs.«109214_j59150289600979_1_alg».proof.Proof.Gen.Kernel.Launch
import proofs.«109214_j59150289600979_1_alg».proof.Proof.Gen.Kernel.Points
import proofs.«109214_j59150289600979_1_alg».proof.Proof.Gen.Kernel.Frame
import proofs.«109214_j59150289600979_1_alg».proof.Proof.Gen.KernelIdeal
import proofs.«109214_j59150289600979_1_alg».proof.Proof.Gen.KernelIdeal.Skeleton
import proofs.«109214_j59150289600979_1_alg».proof.Proof.Gen.KernelIdeal.Launch
import proofs.«109214_j59150289600979_1_alg».proof.Proof.Gen.KernelIdeal.Points
import proofs.«109214_j59150289600979_1_alg».proof.Proof.Gen.KernelIdeal.Frame
import proofs.«109214_j59150289600979_1_alg».proof.Proof.Gen.ReferenceIdeal
import proofs.«109214_j59150289600979_1_alg».proof.Proof.Gen.Pre_finite_inputs
import proofs.«109214_j59150289600979_1_alg».proof.Proof.Gen.KernelIdeal.Value
import proofs.«109214_j59150289600979_1_alg».proof.Proof.Gen.ReferenceIdeal.Run
import proofs.«109214_j59150289600979_1_alg».proof.Proof.Gen.ReferenceIdeal.Read
import proofs.«109214_j59150289600979_1_alg».proof.Proof.RefIsSpec
import proofs.«109214_j59150289600979_1_alg».proof.Proof.Whole
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the nine arguments both programs end with the result array at
    `silu (h1 @ W + b)`, `h1` the features after the gather-products and scatter sums of the shared arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq, Cert.ReferenceIdeal.RefValue.ref_is_mlp,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
